-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x3 .f32) (main_arg1 : IVec S2x3200000 32) (main_arg2 : FVec F S3x16 .f32) (main_arg3 : FVec F S16 .f32) (main_arg4 : FVec F S16x7 .f32) (main_arg5 : FVec F S7 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S20000x3 : Shape := ⟨2, ![20000, 3]⟩
abbrev S20000x16 : Shape := ⟨2, ![20000, 16]⟩
abbrev S3300000x16 : Shape := ⟨2, ![3300000, 16]⟩
abbrev S1x16 : Shape := ⟨2, ![1, 16]⟩
abbrev S100000x7 : Shape := ⟨2, ![100000, 7]⟩
abbrev S20000x7 : Shape := ⟨2, ![20000, 7]⟩
abbrev S3300000x7 : Shape := ⟨2, ![3300000, 7]⟩
abbrev S1x7 : Shape := ⟨2, ![1, 7]⟩
abbrev S20000 : Shape := ⟨1, ![20000]⟩
abbrev S20000x1 : Shape := ⟨2, ![20000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x7, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x7, .f32⟩
  | .hbm, ⟨77, _⟩ => ⟨S3300000x1, .f32⟩
  | .hbm, ⟨78, _⟩ => ⟨S3300000x7, .f32⟩
  | .hbm, ⟨79, _⟩ => ⟨S3300000x7, .f32⟩
  | .hbm, ⟨80, _⟩ => ⟨S_, .f32⟩
  | .hbm, ⟨81, _⟩ => ⟨S100000x7, .f32⟩
  | .hbm, ⟨82, _⟩ => ⟨S3300000x1, .i32⟩
  | .hbm, ⟨83, _⟩ => ⟨S100000x7, .f32⟩
  | .hbm, ⟨84, _⟩ => ⟨S1x7, .f32⟩
  | .hbm, ⟨85, _⟩ => ⟨S100000x7, .f32⟩
  | .local _ .vmem, ⟨0, _⟩ => ⟨S20000x3, .f32⟩
  | .local _ .vmem, ⟨1, _⟩ => ⟨S20000x3, .f32⟩
  | .local _ .vmem, ⟨2, _⟩ => ⟨S3x16, .f32⟩
  | .local _ .vmem, ⟨3, _⟩ => ⟨S20000x16, .f32⟩
  | .local _ .vmem, ⟨4, _⟩ => ⟨S20000x16, .f32⟩
  | .local _ .vmem, ⟨5, _⟩ => ⟨S20000x16, .f32⟩
  | .local _ .vmem, ⟨6, _⟩ => ⟨S20000x16, .f32⟩
  | .local _ .vmem, ⟨7, _⟩ => ⟨S1x16, .f32⟩
  | .local _ .vmem, ⟨8, _⟩ => ⟨S16x7, .f32⟩
  | .local _ .vmem, ⟨9, _⟩ => ⟨S20000x7, .f32⟩
  | .local _ .vmem, ⟨10, _⟩ => ⟨S20000x7, .f32⟩
  | .local _ .vmem, ⟨11, _⟩ => ⟨S20000x7, .f32⟩
  | .local _ .vmem, ⟨12, _⟩ => ⟨S20000x7, .f32⟩
  | .local _ .vmem, ⟨13, _⟩ => ⟨S1x7, .f32⟩
  | .local _ .vmem, ⟨14, _⟩ => ⟨S20000x7, .f32⟩
  | .local _ .vmem, ⟨15, _⟩ => ⟨S20000x7, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S20000x3_S20000x3_0_0 : ∀ a, (![0, 0] : Fin 2 → Nat) a + S20000x3.size a ≤ S20000x3.size a
  h_S20000x3 : 0 < S20000x3.numel
  inb_S3x16_S3x16_0_0 : ∀ a, (![0, 0] : Fin 2 → Nat) a + S3x16.size a ≤ S3x16.size a
  h_S3x16 : 0 < S3x16.numel
  inb_S20000x16_S20000x16_0_0 : ∀ a, (![0, 0] : Fin 2 → Nat) a + S20000x16.size a ≤ S20000x16.size a
  h_S20000x16 : 0 < S20000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x7_S16x7_0_0 : ∀ a, (![0, 0] : Fin 2 → Nat) a + S16x7.size a ≤ S16x7.size a
  h_S16x7 : 0 < S16x7.numel
  inb_S20000x7_S20000x7_0_0 : ∀ a, (![0, 0] : Fin 2 → Nat) a + S20000x7.size a ≤ S20000x7.size a
  h_S20000x7 : 0 < S20000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S20000x7_S20000x7 : S20000x7.ShapeCasts S20000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S20000x7 : S1x7.Broadcasts S20000x7
  reduces_S20000x7_S20000 : S20000x7.Reduces [1] S20000
  shapeCasts_S20000_S20000x1 : S20000.ShapeCasts S20000x1
  broadcasts_S20000x1_S20000x7 : S20000x1.Broadcasts S20000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S20000x3_S3x16_S20000x16_1_0_0_1_n_n_wf : DotDims.WF S20000x3 S3x16 S20000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S20000x16_S16x7_S20000x7_1_0_0_1_n_n_wf : DotDims.WF S20000x16 S16x7 S20000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x3.size a ≤ S100000x3.size a
  hwx0_0 : ∀ i : grid0.Coords, EltTy.bits .f32 = 32 ∨ (Rect.block (s := S100000x3) S20000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x16.size a ≤ S100000x16.size a
  hwx0_2 : ∀ i : grid0.Coords, EltTy.bits .f32 = 32 ∨ (Rect.block (s := S100000x16) S20000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x7.size a ≤ S100000x7.size a
  hwx1_3 : ∀ i : grid1.Coords, EltTy.bits .f32 = 32 ∨ (Rect.block (s := S100000x7) S20000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x7.size a ≤ S100000x7.size a
  hwx2_0 : ∀ i : grid2.Coords, EltTy.bits .f32 = 32 ∨ (Rect.block (s := S100000x7) S20000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x7.size a ≤ S100000x7.size a
  hwx2_2 : ∀ i : grid2.Coords, EltTy.bits .f32 = 32 ∨ (Rect.block (s := S100000x7) S20000x7.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S20000x3_S3x16_S20000x16_1_0_0_1_n_n : DotDims S20000x3 S3x16 S20000x16 where
  lhsContracting := [1]
  rhsContracting := [0]
  lhsNonContracting := [0]
  rhsNonContracting := [1]
  lhsBatch := []
  rhsBatch := []
  wf := dot_S20000x3_S3x16_S20000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S20000x16_S16x7_S20000x7_1_0_0_1_n_n : DotDims S20000x16 S16x7 S20000x7 where
  lhsContracting := [1]
  rhsContracting := [0]
  lhsNonContracting := [0]
  rhsNonContracting := [1]
  lhsBatch := []
  rhsBatch := []
  wf := dot_S20000x16_S16x7_S20000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S20000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S20000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S20000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S20000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S20000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x7, .f32⟩
  | .hbm, ⟨82, _⟩ => ⟨S3300000x1, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x7, .f32⟩
  | .hbm, ⟨99, _⟩ => ⟨S100000x7, .f32⟩
  | .hbm, ⟨100, _⟩ => ⟨S100000x7, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x7, .f32⟩
  | .hbm, ⟨106, _⟩ => ⟨S100000x7, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x16_S100000x16_1_0_0_1_n_n_wf : DotDims.WF S100000x3 S3x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.Spec.lean ====
/-
  The two-layer graph convolution as ONE function of the six argument arrays.

  The edge list `e : [2, E]` gives, per edge, a source (row 0) and a destination (row 1); a self loop per node is
  appended, so both endpoint vectors have length `E + N`. The degree of a node counts the edges that end in it; an edge
  `s → d` carries the weight `deg(s)^(-1/2) · deg(d)^(-1/2)` (zero where a degree is zero). A propagation step
  gathers a feature row per edge at the edge's source, scales it by the edge's weight and adds it into the row of the
  edge's destination. The network is

      log_softmax (propagate (relu (propagate (x · W1) + b1) · W2) + b2)

  with the softmax along each row. Every stage below is spelled operation by operation as the host program spells it,
  for any float interpretation `F`; the bias enters the dense stages as a one-row matrix.
-/
import proofs.«155649_j7086696038552_2_alg».proof.ReferenceIdeal
import Idealize.ShloMosaic.PureOps.Ideal

noncomputable section

namespace Gcn

open Idealize.ShloMosaic Cert.ReferenceIdeal Cert.ReferenceIdeal.Facts₀ Cert.ReferenceIdeal.Facts

/-- An integer array of shape `S`. -/
abbrev I32v (F : FTy → Type) (S : Shape) := (⟨S, .i32⟩ : BufTy).Contents (Elt F)
/-- A float array of shape `S`. -/
abbrev F32v (F : FTy → Type) (S : Shape) := (⟨S, .f32⟩ : BufTy).Contents (Elt F)

variable {F : FTy → Type} [FloatOps F] [Cert.ReferenceIdeal.Facts]

/-- The edges' sources: row 0 of the edge list, then one self loop per node. -/
def sources (e : I32v F S2x3200000) : I32v F S3300000 :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0

/-- The edges' destinations: row 1 of the edge list, then one self loop per node. -/
def targets (e : I32v F S2x3200000) : I32v F S3300000 :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

/-- A negative node index counts from the end: `v < 0 ↦ v + N`. -/
def wrapIdx (v : I32v F S3300000) : I32v F S3300000 :=
  select (cmpi .slt v (broadcastInDim S3300000 ![] bcast_S_S3300000 (constantI S_ 32 0#32)))
    (addi v (broadcastInDim S3300000 ![] bcast_S_S3300000 (constantI S_ 32 100000#32))) v

/-- The degree of every node: a one added per edge at the edge's destination. -/
def degree (dst : I32v F S3300000) : F32v F S100000 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- `deg^(-1/2)` where the degree is positive, zero elsewhere. -/
def invSqrtDeg (deg : F32v F S100000) : F32v F S100000 :=
  select (cmpf .ogt deg (broadcastInDim S100000 ![] bcast_S_S100000 (constant S_ .f32 0x00000000#32)))
    (Host.rsqrt (maximumf deg (broadcastInDim S100000 ![] bcast_S_S100000 (constant S_ .f32 0x3F800000#32))))
    (broadcastInDim S100000 ![] bcast_S_S100000 (id (constant S_ .f32 0x00000000#32)))

/-- The weight of every edge: the product of its two endpoints' `deg^(-1/2)`. -/
def edgeNorm (src dst : I32v F S3300000) : F32v F S3300000 :=
  mulf
    (Host.gather gather_S100000_S3300000x1_S3300000_n_0_n_n_0_1_1 (invSqrtDeg (degree dst))
      (broadcastInDim S3300000x1 ![0] bcast_S3300000_S3300000x1_0 (wrapIdx src)))
    (Host.gather gather_S100000_S3300000x1_S3300000_n_0_n_n_0_1_1 (invSqrtDeg (degree dst))
      (broadcastInDim S3300000x1 ![0] bcast_S3300000_S3300000x1_0 (wrapIdx dst)))

/-- One propagation step over 16 features: gather at the sources, scale by the edge weight, add at the destinations. -/
def propagate16 (h : F32v F S100000x16) (src dst : I32v F S3300000) (nrm : F32v F S3300000) : F32v F S100000x16 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst)
    (mulf
      (Host.gather gather_S100000x16_S3300000x1_S3300000x16_1_0_n_n_0_1_116 h
        (broadcastInDim S3300000x1 ![0] bcast_S3300000_S3300000x1_0 (wrapIdx src)))
      (broadcastInDim S3300000x16 ![0, 1] bcast_S3300000x1_S3300000x16_0_1
        (broadcastInDim S3300000x1 ![0] bcast_S3300000_S3300000x1_0 nrm)))

/-- The same step over 7 features. -/
def propagate7 (h : F32v F S100000x7) (src dst : I32v F S3300000) (nrm : F32v F S3300000) : F32v F S100000x7 :=
  Host.scatterAdd scatter_S100000x7_S3300000x1_S3300000x7_1_0_0_1
    (broadcastInDim S100000x7 ![] bcast_S_S100000x7 (constant S_ .f32 0x00000000#32))
    (broadcastInDim S3300000x1 ![0] bcast_S3300000_S3300000x1_0 dst)
    (mulf
      (Host.gather gather_S100000x7_S3300000x1_S3300000x7_1_0_n_n_0_1_17 h
        (broadcastInDim S3300000x1 ![0] bcast_S3300000_S3300000x1_0 (wrapIdx src)))
      (broadcastInDim S3300000x7 ![0, 1] bcast_S3300000x1_S3300000x7_0_1
        (broadcastInDim S3300000x1 ![0] bcast_S3300000_S3300000x1_0 nrm)))

/-- The first dense stage: `x · W1`. -/
def dense1 (x : F32v F S100000x3) (w : F32v F S3x16) : F32v F S100000x16 :=
  Host.dotGeneral dot_S100000x3_S3x16_S100000x16_1_0_0_1_n_n none x w

/-- A length-16 bias as a one-row matrix. -/
def biasRow16 (b : F32v F S16) : F32v F S1x16 := broadcastInDim S1x16 ![1] bcast_S16_S1x16_1 b

/-- A length-7 bias as a one-row matrix. -/
def biasRow7 (b : F32v F S7) : F32v F S1x7 := broadcastInDim S1x7 ![1] bcast_S7_S1x7_1 b

/-- The second dense stage: `relu (a + b) · W2`, the bias row `b` added to every row. -/
def dense2 (a : F32v F S100000x16) (brow : F32v F S1x16) (w : F32v F S16x7) : F32v F S100000x7 :=
  Host.dotGeneral dot_S100000x16_S16x7_S100000x7_1_0_0_1_n_n none
    (maximumf (addf a (broadcastInDim S100000x16 ![0, 1] bcast_S1x16_S100000x16_0_1 brow))
      (broadcastInDim S100000x16 ![] bcast_S_S100000x16 (constant S_ .f32 0x00000000#32))) w

/-- Every row minus its maximum (the maximum taken from `-∞`). -/
def shiftRows (h : F32v F S100000x7) : F32v F S100000x7 :=
  subf h (broadcastInDim S100000x7 ![0, 1] bcast_S100000x1_S100000x7_0_1
    (broadcastInDim S100000x1 ![0] bcast_S100000_S100000x1_0
      (maximumf (broadcastInDim S100000 ![] bcast_S_S100000 (constant S_ .f32 0xFF800000#32))
        (Host.reduce (FloatOps.maximumf (F := F) (φ := .f32)) h (constant S_ .f32 0xFF800000#32) reducesTo_S100000x7_S100000_d1 h_S_))))

/-- `log_softmax` along each row: the shifted row minus the logarithm of the sum of its exponentials. -/
def logSoftmaxRows (h : F32v F S100000x7) : F32v F S100000x7 :=
  subf (shiftRows h) (broadcastInDim S100000x7 ![0, 1] bcast_S100000x1_S100000x7_0_1
    (Host.log (broadcastInDim S100000x1 ![0] bcast_S100000_S100000x1_0
      (Host.reduceAdd (Host.exp (shiftRows h)) (constant S_ .f32 0x00000000#32) reducesTo_S100000x7_S100000_d1 h_S_))))

/-- The last stage: `log_softmax (a + b)`, the bias row `b` added to every row. -/
def biasLogSoftmax (a : F32v F S100000x7) (brow : F32v F S1x7) : F32v F S100000x7 :=
  logSoftmaxRows (addf a (broadcastInDim S100000x7 ![0, 1] bcast_S1x7_S100000x7_0_1 brow))

/-- The whole network, the bias rows given. -/
def gcnRows (x : F32v F S100000x3) (e : I32v F S2x3200000) (w1 : F32v F S3x16) (b1 : F32v F S1x16) (w2 : F32v F S16x7) (b2 : F32v F S1x7) :
    F32v F S100000x7 :=
  biasLogSoftmax
    (propagate7
      (dense2 (propagate16 (dense1 x w1) (sources e) (targets e) (edgeNorm (sources e) (targets e))) b1 w2)
      (sources e) (targets e) (edgeNorm (sources e) (targets e)))
    b2

/-- The whole network as a function of the six argument arrays. -/
def gcn (x : F32v F S100000x3) (e : I32v F S2x3200000) (w1 : F32v F S3x16) (b1 : F32v F S16) (w2 : F32v F S16x7) (b2 : F32v F S7) :
    F32v F S100000x7 :=
  gcnRows x e w1 (biasRow16 b1) w2 (biasRow7 b2)

end Gcn

end
-- ==== Proof.RefStages.lean ====
/-
  The reference program's operations, cut at its three dense stages, read as stages of the network.

  The reference's operation list is the concatenation of six stretches: the edges' endpoints and weights from the edge
  list; `x · W1`; the first propagation; the bias, the clamp at zero and `· W2`; the second propagation; the bias and the
  row-wise `log_softmax`. Each stretch is read for ANY contents `V` of the buffers it starts from: the buffer it computes
  holds the corresponding stage of the buffers it reads, and a buffer it does not write holds what it held. Running the
  stretches one after the other, the result buffer holds `Gcn.gcn` of the six argument arrays.
-/
import proofs.«155649_j7086696038552_2_alg».proof.Proof.Gen.ReferenceIdeal
import proofs.«155649_j7086696038552_2_alg».proof.Proof.Spec
import Idealize.ShloMosaic.Lib.StableHlo.Run
import Idealize.ShloMosaic.Lib.Pipeline.Frame

set_option maxRecDepth 16384
set_option maxHeartbeats 4000000

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The edges' endpoints and weights, from the edge list. -/
abbrev edgeOps : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]
/-- `x · W1`. -/
abbrev dense1Ops : List (HloOp τ sig (Elt F)) :=
  [ binary main_arg0 main_arg2 main_v32 ((fun l r => Host.dotGeneral dot_S100000x3_S3x16_S100000x16_1_0_0_1_n_n none l r) : (⟨S100000x3, .f32⟩ : BufTy).Contents (Elt F) → (⟨S3x16, .f32⟩ : BufTy).Contents (Elt F) → (⟨S100000x16, .f32⟩ : BufTy).Contents (Elt F)) ]
/-- The first propagation. -/
abbrev prop1Ops : List (HloOp τ sig (Elt F)) :=
  [ nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
/-- The bias, the clamp at zero and `· W2`. -/
abbrev dense2Ops : List (HloOp τ sig (Elt F)) :=
  [ unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg4 main_v50 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)) ]
/-- The second propagation. -/
abbrev prop2Ops : List (HloOp τ sig (Elt F)) :=
  [ nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x7 ![0, 1] bcast_S3300000x1_S3300000x7_0_1 : (⟨S3300000x1, .f32⟩ : BufTy).Contents (Elt F) → (⟨S3300000x7, .f32⟩ : BufTy).Contents (Elt F)),
    binary main_v57 main_v59 main_v60 (mulf : (⟨S3300000x7, .f32⟩ : BufTy).Contents (Elt F) → (⟨S3300000x7, .f32⟩ : BufTy).Contents (Elt F) → (⟨S3300000x7, .f32⟩ : BufTy).Contents (Elt F)),
    nullary main_cst_12 (constant S_ .f32 0x00000000#32),
    unary main_cst_12 main_v61 (broadcastInDim S100000x7 ![] bcast_S_S100000x7 : (⟨S_, .f32⟩ : BufTy).Contents (Elt F) → (⟨S100000x7, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)) ]
/-- The bias and the row-wise `log_softmax`. -/
abbrev lastOps : List (HloOp τ sig (Elt F)) :=
  [ unary main_arg5 main_v64 (broadcastInDim S1x7 ![1] bcast_S7_S1x7_1 : (⟨S7, .f32⟩ : BufTy).Contents (Elt F) → (⟨S1x7, .f32⟩ : BufTy).Contents (Elt F)),
    unary main_v64 main_v65 (broadcastInDim S100000x7 ![0, 1] bcast_S1x7_S100000x7_0_1 : (⟨S1x7, .f32⟩ : BufTy).Contents (Elt F) → (⟨S100000x7, .f32⟩ : BufTy).Contents (Elt F)),
    binary main_v63 main_v65 main_v66 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call2_cst) (constant S_ .f32 0xFF800000#32),
    TRef.binary (TRef.of (T := ⟨S100000x7, .f32⟩) main_v66) (TRef.of (T := ⟨S_, .f32⟩) main_call2_cst) (TRef.of (T := ⟨S100000, .f32⟩) main_call2_v0) (fun x v => Host.reduce FloatOps.maximumf x v reducesTo_S100000x7_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x7, .f32⟩) main_call2_v4) (broadcastInDim S100000x7 ![0, 1] bcast_S100000x1_S100000x7_0_1),
    TRef.binary (TRef.of (T := ⟨S100000x7, .f32⟩) main_v66) (TRef.of (T := ⟨S100000x7, .f32⟩) main_call2_v4) (TRef.of (T := ⟨S100000x7, .f32⟩) main_call2_v5) subf,
    TRef.unary (TRef.of (T := ⟨S100000x7, .f32⟩) main_call2_v5) (TRef.of (T := ⟨S100000x7, .f32⟩) main_call2_v6) Host.exp,
    TRef.nullary (TRef.of (T := ⟨S_, .f32⟩) main_call2_cst_1) (constant S_ .f32 0x00000000#32),
    TRef.binary (TRef.of (T := ⟨S100000x7, .f32⟩) main_call2_v6) (TRef.of (T := ⟨S_, .f32⟩) main_call2_cst_1) (TRef.of (T := ⟨S100000, .f32⟩) main_call2_v7) (fun x v => Host.reduceAdd x v reducesTo_S100000x7_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x7, .f32⟩) main_call2_v10) (broadcastInDim S100000x7 ![0, 1] bcast_S100000x1_S100000x7_0_1),
    TRef.binary (TRef.of (T := ⟨S100000x7, .f32⟩) main_call2_v5) (TRef.of (T := ⟨S100000x7, .f32⟩) main_call2_v10) (TRef.of (T := ⟨S100000x7, .f32⟩) main_v67) subf ]

/-- Contents carried to a typed reference's buffer and back are unchanged. -/
theorem ofBuf_toBuf {T : BufTy} (x : TRef sig T) (v : T.Contents (Elt F)) : x.ofBuf (x.toBuf v) = v := by
  obtain ⟨r, rfl, _, _⟩ := x
  rfl

variable (V : Valuation τ sig (Elt F))

/-! ## The edges -/

theorem edge_sources : after (edgeOps (F := F)) V (Proc.devRef .tc main_v3) = Gcn.sources (V (Proc.devRef .tc main_arg1)) := by
  simp only [edgeOps]; after_results_simp; rfl
theorem edge_targets : after (edgeOps (F := F)) V (Proc.devRef .tc main_v6) = Gcn.targets (V (Proc.devRef .tc main_arg1)) := by
  simp only [edgeOps]; after_results_simp; rfl
theorem edge_norm : after (edgeOps (F := F)) V (Proc.devRef .tc main_v31)
    = Gcn.edgeNorm (Gcn.sources (V (Proc.devRef .tc main_arg1))) (Gcn.targets (V (Proc.devRef .tc main_arg1))) := by
  simp only [edgeOps]; after_results_simp; rfl
theorem edge_arg0 : after (edgeOps (F := F)) V (Proc.devRef .tc main_arg0) = V (Proc.devRef .tc main_arg0) := by
  simp only [edgeOps]; after_results_simp
theorem edge_arg2 : after (edgeOps (F := F)) V (Proc.devRef .tc main_arg2) = V (Proc.devRef .tc main_arg2) := by
  simp only [edgeOps]; after_results_simp
theorem edge_arg3 : after (edgeOps (F := F)) V (Proc.devRef .tc main_arg3) = V (Proc.devRef .tc main_arg3) := by
  simp only [edgeOps]; after_results_simp
theorem edge_arg4 : after (edgeOps (F := F)) V (Proc.devRef .tc main_arg4) = V (Proc.devRef .tc main_arg4) := by
  simp only [edgeOps]; after_results_simp
theorem edge_arg5 : after (edgeOps (F := F)) V (Proc.devRef .tc main_arg5) = V (Proc.devRef .tc main_arg5) := by
  simp only [edgeOps]; after_results_simp

/-! ## `x · W1` -/

theorem dense1_v32 : after (dense1Ops (F := F)) V (Proc.devRef .tc main_v32) = Gcn.dense1 (V (Proc.devRef .tc main_arg0)) (V (Proc.devRef .tc main_arg2)) := by
  simp only [dense1Ops]; after_results_simp; rfl
theorem dense1_v3 : after (dense1Ops (F := F)) V (Proc.devRef .tc main_v3) = V (Proc.devRef .tc main_v3) := by
  simp only [dense1Ops]; after_results_simp
theorem dense1_v6 : after (dense1Ops (F := F)) V (Proc.devRef .tc main_v6) = V (Proc.devRef .tc main_v6) := by
  simp only [dense1Ops]; after_results_simp
theorem dense1_v31 : after (dense1Ops (F := F)) V (Proc.devRef .tc main_v31) = V (Proc.devRef .tc main_v31) := by
  simp only [dense1Ops]; after_results_simp
theorem dense1_arg3 : after (dense1Ops (F := F)) V (Proc.devRef .tc main_arg3) = V (Proc.devRef .tc main_arg3) := by
  simp only [dense1Ops]; after_results_simp
theorem dense1_arg4 : after (dense1Ops (F := F)) V (Proc.devRef .tc main_arg4) = V (Proc.devRef .tc main_arg4) := by
  simp only [dense1Ops]; after_results_simp
theorem dense1_arg5 : after (dense1Ops (F := F)) V (Proc.devRef .tc main_arg5) = V (Proc.devRef .tc main_arg5) := by
  simp only [dense1Ops]; after_results_simp

/-! ## The first propagation -/

theorem prop1_v45 : after (prop1Ops (F := F)) V (Proc.devRef .tc main_v45)
    = Gcn.propagate16 (V (Proc.devRef .tc main_v32)) (V (Proc.devRef .tc main_v3)) (V (Proc.devRef .tc main_v6)) (V (Proc.devRef .tc main_v31)) := by
  simp only [prop1Ops]; after_results_simp; rfl
theorem prop1_v3 : after (prop1Ops (F := F)) V (Proc.devRef .tc main_v3) = V (Proc.devRef .tc main_v3) := by
  simp only [prop1Ops]; after_results_simp
theorem prop1_v6 : after (prop1Ops (F := F)) V (Proc.devRef .tc main_v6) = V (Proc.devRef .tc main_v6) := by
  simp only [prop1Ops]; after_results_simp
theorem prop1_v31 : after (prop1Ops (F := F)) V (Proc.devRef .tc main_v31) = V (Proc.devRef .tc main_v31) := by
  simp only [prop1Ops]; after_results_simp
theorem prop1_arg3 : after (prop1Ops (F := F)) V (Proc.devRef .tc main_arg3) = V (Proc.devRef .tc main_arg3) := by
  simp only [prop1Ops]; after_results_simp
theorem prop1_arg4 : after (prop1Ops (F := F)) V (Proc.devRef .tc main_arg4) = V (Proc.devRef .tc main_arg4) := by
  simp only [prop1Ops]; after_results_simp
theorem prop1_arg5 : after (prop1Ops (F := F)) V (Proc.devRef .tc main_arg5) = V (Proc.devRef .tc main_arg5) := by
  simp only [prop1Ops]; after_results_simp

/-! ## The second dense stage -/

theorem dense2_v50 : after (dense2Ops (F := F)) V (Proc.devRef .tc main_v50)
    = Gcn.dense2 (V (Proc.devRef .tc main_v45)) (Gcn.biasRow16 (V (Proc.devRef .tc main_arg3))) (V (Proc.devRef .tc main_arg4)) := by
  simp only [dense2Ops]; after_results_simp; rfl
theorem dense2_v3 : after (dense2Ops (F := F)) V (Proc.devRef .tc main_v3) = V (Proc.devRef .tc main_v3) := by
  simp only [dense2Ops]; after_results_simp
theorem dense2_v6 : after (dense2Ops (F := F)) V (Proc.devRef .tc main_v6) = V (Proc.devRef .tc main_v6) := by
  simp only [dense2Ops]; after_results_simp
theorem dense2_v31 : after (dense2Ops (F := F)) V (Proc.devRef .tc main_v31) = V (Proc.devRef .tc main_v31) := by
  simp only [dense2Ops]; after_results_simp
theorem dense2_arg5 : after (dense2Ops (F := F)) V (Proc.devRef .tc main_arg5) = V (Proc.devRef .tc main_arg5) := by
  simp only [dense2Ops]; after_results_simp

/-! ## The second propagation -/

theorem prop2_v63 : after (prop2Ops (F := F)) V (Proc.devRef .tc main_v63)
    = Gcn.propagate7 (V (Proc.devRef .tc main_v50)) (V (Proc.devRef .tc main_v3)) (V (Proc.devRef .tc main_v6)) (V (Proc.devRef .tc main_v31)) := by
  simp only [prop2Ops]; after_results_simp; rfl
theorem prop2_arg5 : after (prop2Ops (F := F)) V (Proc.devRef .tc main_arg5) = V (Proc.devRef .tc main_arg5) := by
  simp only [prop2Ops]; after_results_simp

/-! ## The last stage -/

/-- The last stretch in three: the bias added; every row shifted by its maximum; the logarithm of the row's sum of
    exponentials subtracted. -/
abbrev biasOps : List (HloOp τ sig (Elt F)) :=
  [ unary main_arg5 main_v64 (broadcastInDim S1x7 ![1] bcast_S7_S1x7_1 : (⟨S7, .f32⟩ : BufTy).Contents (Elt F) → (⟨S1x7, .f32⟩ : BufTy).Contents (Elt F)),
    unary main_v64 main_v65 (broadcastInDim S100000x7 ![0, 1] bcast_S1x7_S100000x7_0_1 : (⟨S1x7, .f32⟩ : BufTy).Contents (Elt F) → (⟨S100000x7, .f32⟩ : BufTy).Contents (Elt F)),
    binary main_v63 main_v65 main_v66 (addf : (⟨S100000x7, .f32⟩ : BufTy).Contents (Elt F) → (⟨S100000x7, .f32⟩ : BufTy).Contents (Elt F) → (⟨S100000x7, .f32⟩ : BufTy).Contents (Elt F)) ]
abbrev shiftOps : List (HloOp τ sig (Elt F)) :=
  [ TRef.nullary (TRef.of (T := ⟨S_, .f32⟩) main_call2_cst) (constant S_ .f32 0xFF800000#32),
    TRef.binary (TRef.of (T := ⟨S100000x7, .f32⟩) main_v66) (TRef.of (T := ⟨S_, .f32⟩) main_call2_cst) (TRef.of (T := ⟨S100000, .f32⟩) main_call2_v0) (fun x v => Host.reduce FloatOps.maximumf x v reducesTo_S100000x7_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x7, .f32⟩) main_call2_v4) (broadcastInDim S100000x7 ![0, 1] bcast_S100000x1_S100000x7_0_1),
    TRef.binary (TRef.of (T := ⟨S100000x7, .f32⟩) main_v66) (TRef.of (T := ⟨S100000x7, .f32⟩) main_call2_v4) (TRef.of (T := ⟨S100000x7, .f32⟩) main_call2_v5) subf ]
abbrev lseOps : List (HloOp τ sig (Elt F)) :=
  [ TRef.unary (TRef.of (T := ⟨S100000x7, .f32⟩) main_call2_v5) (TRef.of (T := ⟨S100000x7, .f32⟩) main_call2_v6) Host.exp,
    TRef.nullary (TRef.of (T := ⟨S_, .f32⟩) main_call2_cst_1) (constant S_ .f32 0x00000000#32),
    TRef.binary (TRef.of (T := ⟨S100000x7, .f32⟩) main_call2_v6) (TRef.of (T := ⟨S_, .f32⟩) main_call2_cst_1) (TRef.of (T := ⟨S100000, .f32⟩) main_call2_v7) (fun x v => Host.reduceAdd x v reducesTo_S100000x7_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x7, .f32⟩) main_call2_v10) (broadcastInDim S100000x7 ![0, 1] bcast_S100000x1_S100000x7_0_1),
    TRef.binary (TRef.of (T := ⟨S100000x7, .f32⟩) main_call2_v5) (TRef.of (T := ⟨S100000x7, .f32⟩) main_call2_v10) (TRef.of (T := ⟨S100000x7, .f32⟩) main_v67) subf ]

theorem last_cut : (lastOps : List (HloOp τ sig (Elt F))) = biasOps ++ (shiftOps ++ lseOps) := rfl

theorem bias_v66 : after (biasOps (F := F)) V (Proc.devRef .tc main_v66)
    = addf (V (Proc.devRef .tc main_v63)) (broadcastInDim S100000x7 ![0, 1] bcast_S1x7_S100000x7_0_1 (Gcn.biasRow7 (V (Proc.devRef .tc main_arg5)))) := by
  simp only [biasOps]; after_results_simp; rfl
/-- The typed references' transports are removed first — paired ones by `ofBuf_toBuf`, the two lone ones by their
    defining equations — so that the two sides are then literally the same term. -/
theorem shift_v5 : after (shiftOps (F := F)) V (Proc.devRef .tc main_call2_v5) = Gcn.shiftRows (V (Proc.devRef .tc main_v66)) := by
  simp only [shiftOps]; after_results_simp
  simp only [ofBuf_toBuf]
  have e66 : ∀ p1 p2 p3, (TRef.of (T := ⟨S100000x7, .f32⟩) main_v66 p1 p2 p3).ofBuf (V (Proc.devRef .tc main_v66)) = V (Proc.devRef .tc main_v66) :=
    fun _ _ _ => rfl
  have e5 : ∀ p1 p2 p3 (X : (⟨S100000x7, .f32⟩ : BufTy).Contents (Elt F)), (TRef.of (T := ⟨S100000x7, .f32⟩) main_call2_v5 p1 p2 p3).toBuf X = X :=
    fun _ _ _ _ => rfl
  rw [e66, e5]
  unfold Gcn.shiftRows
  rfl
theorem lse_v67 : after (lseOps (F := F)) V (Proc.devRef .tc main_v67)
    = subf (V (Proc.devRef .tc main_call2_v5)) (broadcastInDim S100000x7 ![0, 1] bcast_S100000x1_S100000x7_0_1
        (Host.log (broadcastInDim S100000x1 ![0] bcast_S100000_S100000x1_0
          (Host.reduceAdd (Host.exp (V (Proc.devRef .tc main_call2_v5))) (constant S_ .f32 0x00000000#32) reducesTo_S100000x7_S100000_d1 h_S_)))) := by
  simp only [lseOps]; after_results_simp; rfl

theorem last_v67 : after (lastOps (F := F)) V (Proc.devRef .tc main_v67)
    = Gcn.biasLogSoftmax (V (Proc.devRef .tc main_v63)) (Gcn.biasRow7 (V (Proc.devRef .tc main_arg5))) := by
  rw [last_cut, StableHlo.after_append, StableHlo.after_append, lse_v67, shift_v5, bias_v66]
  rfl

/-! ## The stretches one after the other -/

/-- After the six stretches the result buffer holds the network of the argument arrays. -/
theorem result_eq : after (edgeOps (F := F) ++ (dense1Ops ++ (prop1Ops ++ (dense2Ops ++ (prop2Ops ++ lastOps))))) V (Proc.devRef .tc main_v67)
    = Gcn.gcn (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [StableHlo.after_append, StableHlo.after_append, StableHlo.after_append, StableHlo.after_append, StableHlo.after_append]
  rw [last_v67]
  rw [prop2_v63, prop2_arg5]
  rw [dense2_v50, dense2_v3, dense2_v6, dense2_v31, dense2_arg5]
  rw [prop1_v45, prop1_v3, prop1_v6, prop1_v31, prop1_arg3, prop1_arg4, prop1_arg5]
  rw [dense1_v32, dense1_v3, dense1_v6, dense1_v31, dense1_arg3, dense1_arg4, dense1_arg5]
  rw [edge_sources, edge_targets, edge_norm, edge_arg0, edge_arg2, edge_arg3, edge_arg4, edge_arg5]
  rfl

end Cert.ReferenceIdeal.Stages

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.Dense1.lean ====
/-
  The first dense stage, block by block.

  The kernel computes `x · W1` over a grid of five points; point `t` multiplies rows `20000 t … 20000 t + 19999` of
  `x` by the whole of `W1` on the matrix unit, accumulating into zero, and writes the product back as the same rows of
  the result. Entry `(p, q)` of that block is `∑ k, x (20000 t + p, k) · W1 (k, q)`, which is entry
  `(20000 t + p, q)` of the whole product; the five blocks tile the result, so after the last point the result array
  is `x · W1`.
-/
import proofs.«155649_j7086696038552_2_alg».proof.Proof.Gen.KernelIdeal.Frame
import proofs.«155649_j7086696038552_2_alg».proof.Proof.Spec
import proofs.«155649_j7086696038552_2_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The windows' block indices at point `t`: the row blocks of `x` and of the result move with `t`, `W1` stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- The body's product at entry `(p, q)` of a block: the sum over the three contracted coordinates. -/
theorem pay_apply (x0 : Vec Ideal S20000x3 .f32) (x1 : Vec Ideal S3x16 .f32) (p : Fin 20000) (q : Fin 16) :
    k0_pay1 (F := Ideal) x0 x1 (ix2 p q) = ∑ k : Fin 3, x0 (ix2 p k) * x1 (ix2 k q) := by
  unfold k0_pay1
  exact Gcn.Lib.plain_matmul_zero_apply (M := 20000) (K := 3) (N := 16) x0 x1 none p q

/-- The whole product at entry `(P, q)`: the same sum over whole rows. -/
theorem dense1_apply [Cert.ReferenceIdeal.Facts] (x : Gcn.F32v Ideal Cert.ReferenceIdeal.S100000x3) (w : Gcn.F32v Ideal Cert.ReferenceIdeal.S3x16)
    (P : Fin 100000) (q : Fin 16) :
    Gcn.dense1 x w (ix2 P q) = ∑ k : Fin 3, x (ix2 P k) * w (ix2 k q) := by
  unfold Gcn.dense1
  exact Gcn.Lib.plain_dotGeneral_apply (M := 100000) (K := 3) (N := 16) x w none _ P q

/-- What point `t` writes back is block `t` of the whole product of the arrays the region finds. -/
theorem flushed_eq [Cert.ReferenceIdeal.Facts] (c : Dev nD) (t : Fin cfg0.N) :
    (dat0 V c).flushed 2 t = ((cfg0.win 2).blk t).view.read (Elt Ideal)
      (Gcn.dense1 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S20000x3) hz, View.ld_unit_zero (S := S3x16) hz]
  obtain ⟨e0, e1, e2, e3, e4, e5, e6⟩ := idx_facts t
  funext j
  obtain ⟨p, q, rfl⟩ : ∃ (p : Fin 20000) (q : Fin 16), j = ix2 p q := ⟨j 0, j 1, eq_ix2 j⟩
  show k0_pay1 (F := Ideal) (iblk0 V c 0 t) (iblk0 V c 1 t) (ix2 p q)
    = Gcn.dense1 (V c (Pipeline.arrRef spec0 0)) (V c (Pipeline.arrRef spec0 1)) (((cfg0.win 2).blk t).view.emb (ix2 p q))
  have hrow : t.val * 20000 + p.val < 100000 := by have := p.isLt; omega
  have hj : ((cfg0.win 2).blk t).view.emb (ix2 p q) = ix2 (⟨t.val * 20000 + p.val, hrow⟩ : Fin 100000) q := by
    funext a; apply Fin.ext
    match a with
    | ⟨0, _⟩ => show win0_2.index t (0 : Fin 2) * 20000 + 1 * p.val = t.val * 20000 + p.val; omega
    | ⟨1, _⟩ => show win0_2.index t (1 : Fin 2) * 16 + 1 * q.val = q.val; omega
  rw [hj, pay_apply, dense1_apply]
  refine Finset.sum_congr rfl fun k _ => ?_
  have h0 : ((cfg0.win 0).blk t).view.emb (ix2 p k) = ix2 (⟨t.val * 20000 + p.val, hrow⟩ : Fin 100000) k := by
    funext a; apply Fin.ext
    match a with
    | ⟨0, _⟩ => show win0_0.index t (0 : Fin 2) * 20000 + 1 * p.val = t.val * 20000 + p.val; omega
    | ⟨1, _⟩ => show win0_0.index t (1 : Fin 2) * 3 + 1 * k.val = k.val; omega
  have h1 : ((cfg0.win 1).blk t).view.emb (ix2 k q) = ix2 k q := by
    funext a; apply Fin.ext
    match a with
    | ⟨0, _⟩ => show win0_1.index t (0 : Fin 2) * 3 + 1 * k.val = k.val; omega
    | ⟨1, _⟩ => show win0_1.index t (1 : Fin 2) * 16 + 1 * q.val = q.val; omega
  have a0 : (iblk0 V c 0 t : Vec Ideal S20000x3 .f32) (ix2 p k)
      = (V c (Pipeline.arrRef spec0 0) : S100000x3.Idx → EReal) (ix2 (⟨t.val * 20000 + p.val, hrow⟩ : Fin 100000) k) := by
    show (V c (Pipeline.arrRef spec0 0) : S100000x3.Idx → EReal) (((cfg0.win 0).blk t).view.emb (ix2 p k)) = _
    rw [h0]
  have a1 : (iblk0 V c 1 t : Vec Ideal S3x16 .f32) (ix2 k q) = (V c (Pipeline.arrRef spec0 1) : S3x16.Idx → EReal) (ix2 k q) := by
    show (V c (Pipeline.arrRef spec0 1) : S3x16.Idx → EReal) (((cfg0.win 1).blk t).view.emb (ix2 k q)) = _
    rw [h1]
  rw [a0, a1]

/-- An index of the result is in point `t`'s block iff its row is one of the block's rows. -/
theorem mem_blk (t : Fin cfg0.N) (i : S100000x16.Idx) :
    i ∈ ((cfg0.win 2).blk t).view.set ↔ ∀ a : Fin 2, win0_2.index t a * S20000x16.size a ≤ (i a).val ∧ (i a).val < win0_2.index t a * S20000x16.size a + S20000x16.size a := by
  show i ∈ ((View.whole main_v32).slice (win0_2.rect t)).set ↔ _
  rw [View.set_slice_whole, Rect.mem_set_unit]
  exact Iff.rfl

/-- Every entry of the result lies in the block of the point its row belongs to. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 5 := N_0
  let t : Fin cfg0.N := ⟨(i 0).val / 20000, by rw [hN]; omega⟩
  obtain ⟨e0, e1, e2, e3, e4, e5, e6⟩ := idx_facts t
  have ht : t.val = (i 0).val / 20000 := rfl
  refine ⟨t, flush0_2 t, ?_⟩
  rw [mem_blk]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 16 ≤ (i 1).val ∧ (i 1).val < win0_2.index t (1 : Fin 2) * 16 + 16; omega

/-- After the region the result array is the whole product of the arrays the region found. -/
theorem final [Cert.ReferenceIdeal.Facts] (c : Dev nD) :
    (dat0 V c).arrAt 2 cfg0.N = Gcn.dense1 (V c (Pipeline.arrRef spec0 0)) (V c (Pipeline.arrRef spec0 1)) :=
  (dat0 V c).arrAt_eq_of_cover 2 _ (fun t _ => flushed_eq V c t) cover

end Cert.KernelIdeal.Dense1

end
-- ==== Proof.Dense2.lean ====
/-
  The second dense stage, block by block.

  Point `t` of the grid takes rows `20000 t … 20000 t + 19999` of the propagated features `a`, adds the one-row bias
  to every row, clamps at zero from below and multiplies by the whole of `W2` on the matrix unit, accumulating into zero.
  Entry `(p, q)` of the block is `∑ k, max (a (20000 t + p, k) + b (0, k)) 0 · W2 (k, q)` — entry `(20000 t + p, q)` of
  `relu (a + b) · W2` over the whole arrays. The five blocks tile the result.
-/
import proofs.«155649_j7086696038552_2_alg».proof.Proof.Gen.KernelIdeal.Frame
import proofs.«155649_j7086696038552_2_alg».proof.Proof.Spec
import proofs.«155649_j7086696038552_2_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The windows' block indices at point `t`: the row blocks of `a` and of the result move with `t`; the bias row and
    `W2` stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 5 :=
  (by decide +kernel : ∀ t : Fin grid1.N, _)

/-- The body's clamped, biased block at entry `(p, k)`. -/
theorem biasRelu_apply (x0 : Vec Ideal S20000x16 .f32) (x1 : Vec Ideal S1x16 .f32)
    (h1 : S20000x16.ShapeCasts S20000x16) (h2 : S1x16.ShapeCasts S1x16) (h3 : S1x16.Broadcasts S20000x16)
    (p : Fin 20000) (k : Fin 16) :
    (maximumf (addf (shapeCast S20000x16 x0 h1) (broadcastTo S20000x16 (shapeCast S1x16 x1 h2) h3))
        (broadcast S20000x16 (Scalar.ofBits (F := Ideal) .f32 0x00000000#32)) : FVec Ideal S20000x16 .f32) (ix2 p k)
      = max (x0 (ix2 p k) + x1 (ix2 (0 : Fin 1) k)) (Ideal.ofBits .f32 0x00000000#32) := by
  rw [shapeCast_self, shapeCast_self]
  have hb : broadcastTo S20000x16 x1 h3 (ix2 p k) = x1 (ix2 (0 : Fin 1) k) :=
    broadcastTo_apply x1 h3 (ix2 p k) (ix2 (0 : Fin 1) k) (fun a => by
      match a with
      | ⟨0, _⟩ => rfl
      | ⟨1, _⟩ => rfl)
  show max (x0 (ix2 p k) + broadcastTo S20000x16 x1 h3 (ix2 p k)) _ = _
  rw [hb]
  rfl

/-- The body's product at entry `(p, q)` of a block. -/
theorem pay_apply (x0 : Vec Ideal S20000x16 .f32) (x1 : Vec Ideal S1x16 .f32) (x2 : Vec Ideal S16x7 .f32) (p : Fin 20000) (q : Fin 7) :
    k1_pay1 (F := Ideal) x0 x1 x2 (ix2 p q)
      = ∑ k : Fin 16, max (x0 (ix2 p k) + x1 (ix2 (0 : Fin 1) k)) (Ideal.ofBits .f32 0x00000000#32) * x2 (ix2 k q) := by
  unfold k1_pay1
  refine (Gcn.Lib.plain_matmul_zero_apply (M := 20000) (K := 16) (N := 7) _ x2 none p q).trans ?_
  refine Finset.sum_congr rfl fun k _ => ?_
  exact congrArg (fun z : EReal => z * x2 (ix2 k q)) (biasRelu_apply x0 x1 _ _ _ p k)

/-- The whole stage at entry `(P, q)`: the same sum over whole rows. -/
theorem dense2_apply [Cert.ReferenceIdeal.Facts] (a : Gcn.F32v Ideal Cert.ReferenceIdeal.S100000x16) (brow : Gcn.F32v Ideal Cert.ReferenceIdeal.S1x16)
    (w : Gcn.F32v Ideal Cert.ReferenceIdeal.S16x7) (P : Fin 100000) (q : Fin 7) :
    Gcn.dense2 a brow w (ix2 P q)
      = ∑ k : Fin 16, max (a (ix2 P k) + brow (ix2 (0 : Fin 1) k)) (Ideal.ofBits .f32 0x00000000#32) * w (ix2 k q) := by
  unfold Gcn.dense2
  refine (Gcn.Lib.plain_dotGeneral_apply (M := 100000) (K := 16) (N := 7) _ w none _ P q).trans ?_
  refine Finset.sum_congr rfl fun k _ => ?_
  refine congrArg (fun z : EReal => z * w (ix2 k q)) ?_
  have hb : broadcastInDim Cert.ReferenceIdeal.S100000x16 ![0, 1] Cert.ReferenceIdeal.Facts₀.bcast_S1x16_S100000x16_0_1 brow (ix2 P k) = brow (ix2 (0 : Fin 1) k) :=
    broadcastInDim_apply _ _ brow (ix2 P k) (ix2 (0 : Fin 1) k) (fun a => by
      match a with
      | ⟨0, _⟩ => rfl
      | ⟨1, _⟩ => rfl)
  show max (a (ix2 P k) + broadcastInDim Cert.ReferenceIdeal.S100000x16 ![0, 1] _ brow (ix2 P k)) _ = _
  rw [hb]
  rfl

set_option maxHeartbeats 1600000 in
/-- What point `t` writes back is block `t` of the whole stage of the arrays the region finds. -/
theorem flushed_eq [Cert.ReferenceIdeal.Facts] (c : Dev nD) (t : Fin cfg1.N) :
    (dat1 V c).flushed 3 t = ((cfg1.win 3).blk t).view.read (Elt Ideal)
      (Gcn.dense2 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S20000x16) hz, View.ld_unit_zero (S := S1x16) hz, View.ld_unit_zero (S := S16x7) hz]
  obtain ⟨e0, e1, e2, e3, e4, e5, e6, e7, e8⟩ := idx_facts t
  funext j
  obtain ⟨p, q, rfl⟩ : ∃ (p : Fin 20000) (q : Fin 7), j = ix2 p q := ⟨j 0, j 1, eq_ix2 j⟩
  show k1_pay1 (F := Ideal) (iblk1 V c 0 t) (iblk1 V c 1 t) (iblk1 V c 2 t) (ix2 p q)
    = Gcn.dense2 (V c (Pipeline.arrRef spec1 0)) (V c (Pipeline.arrRef spec1 1)) (V c (Pipeline.arrRef spec1 2)) (((cfg1.win 3).blk t).view.emb (ix2 p q))
  have hrow : t.val * 20000 + p.val < 100000 := by have := p.isLt; omega
  have hj : ((cfg1.win 3).blk t).view.emb (ix2 p q) = ix2 (⟨t.val * 20000 + p.val, hrow⟩ : Fin 100000) q := by
    funext a; apply Fin.ext
    match a with
    | ⟨0, _⟩ => show win1_3.index t (0 : Fin 2) * 20000 + 1 * p.val = t.val * 20000 + p.val; omega
    | ⟨1, _⟩ => show win1_3.index t (1 : Fin 2) * 7 + 1 * q.val = q.val; omega
  rw [hj, pay_apply, dense2_apply]
  refine Finset.sum_congr rfl fun k _ => ?_
  have h0 : ((cfg1.win 0).blk t).view.emb (ix2 p k) = ix2 (⟨t.val * 20000 + p.val, hrow⟩ : Fin 100000) k := by
    funext a; apply Fin.ext
    match a with
    | ⟨0, _⟩ => show win1_0.index t (0 : Fin 2) * 20000 + 1 * p.val = t.val * 20000 + p.val; omega
    | ⟨1, _⟩ => show win1_0.index t (1 : Fin 2) * 16 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 16 + 1 * k.val = k.val; omega
  have h2 : ((cfg1.win 2).blk t).view.emb (ix2 k q) = ix2 k q := by
    funext a; apply Fin.ext
    match a with
    | ⟨0, _⟩ => show win1_2.index t (0 : Fin 2) * 16 + 1 * k.val = k.val; omega
    | ⟨1, _⟩ => show win1_2.index t (1 : Fin 2) * 7 + 1 * q.val = q.val; omega
  have a0 : (iblk1 V c 0 t : Vec Ideal S20000x16 .f32) (ix2 p k)
      = (V c (Pipeline.arrRef spec1 0) : S100000x16.Idx → EReal) (ix2 (⟨t.val * 20000 + p.val, hrow⟩ : Fin 100000) k) := by
    show (V c (Pipeline.arrRef spec1 0) : S100000x16.Idx → EReal) (((cfg1.win 0).blk t).view.emb (ix2 p k)) = _
    rw [h0]
  have a1 : (iblk1 V c 1 t : Vec Ideal S1x16 .f32) (ix2 (0 : Fin 1) k) = (V c (Pipeline.arrRef spec1 1) : S1x16.Idx → EReal) (ix2 (0 : Fin 1) k) := by
    show (V c (Pipeline.arrRef spec1 1) : S1x16.Idx → EReal) (((cfg1.win 1).blk t).view.emb (ix2 (0 : Fin 1) k)) = _
    rw [h1]
  have a2 : (iblk1 V c 2 t : Vec Ideal S16x7 .f32) (ix2 k q) = (V c (Pipeline.arrRef spec1 2) : S16x7.Idx → EReal) (ix2 k q) := by
    show (V c (Pipeline.arrRef spec1 2) : S16x7.Idx → EReal) (((cfg1.win 2).blk t).view.emb (ix2 k q)) = _
    rw [h2]
  rw [a0, a1, a2]

/-- An index of the result is in point `t`'s block iff its row is one of the block's rows. -/
theorem mem_blk (t : Fin cfg1.N) (i : S100000x7.Idx) :
    i ∈ ((cfg1.win 3).blk t).view.set ↔ ∀ a : Fin 2, win1_3.index t a * S20000x7.size a ≤ (i a).val ∧ (i a).val < win1_3.index t a * S20000x7.size a + S20000x7.size a := by
  show i ∈ ((View.whole main_v47).slice (win1_3.rect t)).set ↔ _
  rw [View.set_slice_whole, Rect.mem_set_unit]
  exact Iff.rfl

/-- Every entry of the result lies in the block of the point its row belongs to. -/
theorem cover (i : S100000x7.Idx) : ∃ t : Fin cfg1.N, (cfg1.win 3).flush t = true ∧ i ∈ ((cfg1.win 3).blk t).view.set := by
  have hi0 : (i 0).val < 100000 := (i 0).isLt
  have hi1 : (i 1).val < 7 := (i 1).isLt
  have hN : cfg1.N = 5 := N_1
  let t : Fin cfg1.N := ⟨(i 0).val / 20000, by rw [hN]; omega⟩
  obtain ⟨e0, e1, e2, e3, e4, e5, e6, e7, e8⟩ := idx_facts t
  have ht : t.val = (i 0).val / 20000 := rfl
  refine ⟨t, flush1_3 t, ?_⟩
  rw [mem_blk]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 7 ≤ (i 1).val ∧ (i 1).val < win1_3.index t (1 : Fin 2) * 7 + 7; omega

/-- After the region the result array is the whole stage of the arrays the region found. -/
theorem final [Cert.ReferenceIdeal.Facts] (c : Dev nD) :
    (dat1 V c).arrAt 3 cfg1.N
      = Gcn.dense2 (V c (Pipeline.arrRef spec1 0)) (V c (Pipeline.arrRef spec1 1)) (V c (Pipeline.arrRef spec1 2)) :=
  (dat1 V c).arrAt_eq_of_cover 3 _ (fun t _ => flushed_eq V c t) cover

end Cert.KernelIdeal.Dense2

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LogSoftmax.lean ====
/-
  The last stage, block by block: bias, then `log_softmax` along each row.

  For a row `h : Fin 7 → EReal` put `M = max over k of h k` (the maximum taken from `-∞`) and
  `rowLogSoftmax h q = (h q - M) - log (∑ k, exp (h k - M))`. Point `t` of the grid takes rows
  `20000 t … 20000 t + 19999` of the propagated features `a`, adds the one-row bias and writes back, at `(p, q)`,
  `rowLogSoftmax` of row `p` of the biased block. The host computes the same thing over whole arrays, with one more
  operation: it takes the maximum of `-∞` and the row's maximum, which is the row's maximum. The five blocks tile the
  result.
-/
import proofs.«155649_j7086696038552_2_alg».proof.Proof.Gen.KernelIdeal.Frame
import proofs.«155649_j7086696038552_2_alg».proof.Proof.Spec
import proofs.«155649_j7086696038552_2_alg».proof.Proof.LibRowOps
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LogSoftmax

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- `log_softmax` of one row of seven entries, at entry `q`. -/
def rowLogSoftmax (h : Fin 7 → EReal) (q : Fin 7) : EReal :=
  (h q - (Finset.univ : Finset (Fin 7)).fold max ⊥ h)
    - Ideal.log (∑ k : Fin 7, Ideal.exp (h k - (Finset.univ : Finset (Fin 7)).fold max ⊥ h))

/-! ## Pointwise readings used below -/

theorem log_apply {s : Shape} (v : FVec Ideal s .f32) (i : s.Idx) : log v i = Ideal.log (v i) := rfl
theorem exp_apply {s : Shape} (v : FVec Ideal s .f32) (i : s.Idx) : exp v i = Ideal.exp (v i) := rfl
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl
/-- The host's float sum along axes, at an index: the exact sum from the initial value. -/
theorem hostReduceAdd_apply {s t u : Shape} {axes : List (Fin s.rank)} (x : FVec Ideal s .f32) (init : u.Idx → Ideal .f32)
    (h' : s.ReducesTo axes t) (hu : 0 < u.numel) (j : t.Idx) :
    Host.reduceAdd x init h' hu j = Ideal.hostReduceAdd h' x (init (Shape.Idx.first hu)) j := rfl

/-! ## The kernel's body at an entry -/

/-- The biased block at entry `(p, k)`. -/
theorem biased_apply (x0 : Vec Ideal S20000x7 .f32) (x1 : Vec Ideal S1x7 .f32)
    (h1 : S20000x7.ShapeCasts S20000x7) (h2 : S1x7.ShapeCasts S1x7) (h3 : S1x7.Broadcasts S20000x7) (p : Fin 20000) (k : Fin 7) :
    (addf (shapeCast S20000x7 x0 h1) (broadcastTo S20000x7 (shapeCast S1x7 x1 h2) h3) : FVec Ideal S20000x7 .f32) (ix2 p k)
      = x0 (ix2 p k) + x1 (ix2 (0 : Fin 1) k) := by
  rw [shapeCast_self, shapeCast_self]
  have hb : broadcastTo S20000x7 x1 h3 (ix2 p k) = x1 (ix2 (0 : Fin 1) k) :=
    broadcastTo_apply x1 h3 (ix2 p k) (ix2 (0 : Fin 1) k) (fun a => by
      match a with
      | ⟨0, _⟩ => rfl
      | ⟨1, _⟩ => rfl)
  show x0 (ix2 p k) + broadcastTo S20000x7 x1 h3 (ix2 p k) = _
  rw [hb]

/-- The row maximum, cast to a column and broadcast back, at entry `(p, k)`: the maximum of row `p`. -/
theorem rowMaxB_apply (v5 : FVec Ideal S20000x7 .f32) (hr : Shape.Reduces S20000x7 [1] S20000) (hc : S20000.ShapeCasts S20000x1)
    (hb : S20000x1.Broadcasts S20000x7) (hφ : FKind.Formats .f32) (hm : (0xFF800000#32 : BitVec 32) = FKind.maximumf.neutral .f32 hφ)
    (p : Fin 20000) (k : Fin 7) :
    broadcastTo S20000x7 (shapeCast S20000x1 (multiReduction .maximumf [1] S20000 v5 0xFF800000#32 hr hφ hm) hc) hb (ix2 p k)
      = (Finset.univ : Finset (Fin 7)).fold max ⊥ (fun k => v5 (ix2 p k)) := by
  rw [Gcn.Lib.broadcastTo_a1_ab_apply, Gcn.Lib.shapeCast_a_a1_apply, Gcn.Lib.rowMax_apply]

/-- The kernel's `log_softmax` of a block `v5`, at entry `(p, q)`. -/
theorem rows_apply (v5 : FVec Ideal S20000x7 .f32) (hr : Shape.Reduces S20000x7 [1] S20000) (hc : S20000.ShapeCasts S20000x1)
    (hb : S20000x1.Broadcasts S20000x7) (hφ : FKind.Formats .f32) (hm : (0xFF800000#32 : BitVec 32) = FKind.maximumf.neutral .f32 hφ)
    (ha : (0x00000000#32 : BitVec 32) = FKind.add.neutral .f32 hφ) (p : Fin 20000) (q : Fin 7) :
    (subf (subf v5 (broadcastTo S20000x7 (shapeCast S20000x1 (multiReduction .maximumf [1] S20000 v5 0xFF800000#32 hr hφ hm) hc) hb))
      (broadcastTo S20000x7 (log (shapeCast S20000x1 (multiReduction .add [1] S20000
        (exp (subf v5 (broadcastTo S20000x7 (shapeCast S20000x1 (multiReduction .maximumf [1] S20000 v5 0xFF800000#32 hr hφ hm) hc) hb)))
        0x00000000#32 hr hφ ha) hc)) hb) : FVec Ideal S20000x7 .f32) (ix2 p q)
      = rowLogSoftmax (fun k => v5 (ix2 p k)) q := by
  have hshift : ∀ k : Fin 7,
      (subf v5 (broadcastTo S20000x7 (shapeCast S20000x1 (multiReduction .maximumf [1] S20000 v5 0xFF800000#32 hr hφ hm) hc) hb) : FVec Ideal S20000x7 .f32) (ix2 p k)
        = v5 (ix2 p k) - (Finset.univ : Finset (Fin 7)).fold max ⊥ (fun k => v5 (ix2 p k)) := fun k => by
    rw [subf_apply, rowMaxB_apply]
  rw [subf_apply, hshift, Gcn.Lib.broadcastTo_a1_ab_apply, log_apply, Gcn.Lib.shapeCast_a_a1_apply, Gcn.Lib.rowSum_apply]
  unfold rowLogSoftmax
  refine congrArg (fun s : EReal => _ - Ideal.log s) (Finset.sum_congr rfl fun k _ => ?_)
  rw [exp_apply, hshift]

/-- The body's result at entry `(p, q)` of a block. -/
theorem pay_apply (x0 : Vec Ideal S20000x7 .f32) (x1 : Vec Ideal S1x7 .f32) (p : Fin 20000) (q : Fin 7) :
    k2_pay1 (F := Ideal) x0 x1 (ix2 p q) = rowLogSoftmax (fun k => x0 (ix2 p k) + x1 (ix2 (0 : Fin 1) k)) q := by
  unfold k2_pay1
  refine (rows_apply _ _ _ _ _ _ _ p q).trans ?_
  exact congrArg (fun h : Fin 7 → EReal => rowLogSoftmax h q) (funext fun k => biased_apply x0 x1 _ _ _ p k)

/-! ## The host's stage at an entry -/

section Host

variable [Cert.ReferenceIdeal.Facts]

/-- Every row minus its maximum, at entry `(P, k)`. -/
theorem shiftRows_apply (h : Gcn.F32v Ideal Cert.ReferenceIdeal.S100000x7) (P : Fin 100000) (k : Fin 7) :
    Gcn.shiftRows h (ix2 P k) = h (ix2 P k) - (Finset.univ : Finset (Fin 7)).fold max ⊥ (fun k => h (ix2 P k)) := by
  unfold Gcn.shiftRows
  rw [subf_apply]
  refine congrArg (fun z : EReal => h (ix2 P k) - z) ?_
  rw [broadcastInDim_apply _ _ _ (ix2 P k) (ix2 P (0 : Fin 1)) (fun a => by
      match a with
      | ⟨0, _⟩ => rfl
      | ⟨1, _⟩ => rfl)]
  rw [broadcastInDim_apply _ _ _ (ix2 P (0 : Fin 1)) (ix1 P) (fun a => by
      match a with
      | ⟨0, _⟩ => rfl)]
  rw [maximumf_apply, Gcn.Lib.hostRowMax_apply h _ _ (by decide) _ P]
  show max _ ((Finset.univ : Finset (Fin 7)).fold max (Ideal.ofBits .f32 0xFF800000#32) _) = _
  rw [Gcn.Lib.ofBits_neg_inf_f32]
  exact max_eq_right bot_le

/-- The host's `log_softmax` of the rows of `h`, at entry `(P, q)`. -/
theorem logSoftmaxRows_apply (h : Gcn.F32v Ideal Cert.ReferenceIdeal.S100000x7) (P : Fin 100000) (q : Fin 7) :
    Gcn.logSoftmaxRows h (ix2 P q) = rowLogSoftmax (fun k => h (ix2 P k)) q := by
  unfold Gcn.logSoftmaxRows
  rw [subf_apply, shiftRows_apply]
  rw [broadcastInDim_apply _ _ _ (ix2 P q) (ix2 P (0 : Fin 1)) (fun a => by
      match a with
      | ⟨0, _⟩ => rfl
      | ⟨1, _⟩ => rfl)]
  rw [hostLog_apply]
  rw [broadcastInDim_apply _ _ _ (ix2 P (0 : Fin 1)) (ix1 P) (fun a => by
      match a with
      | ⟨0, _⟩ => rfl)]
  rw [hostReduceAdd_apply, Ideal.hostReduceAdd_single _ (by decide : Shape.Reduces Cert.ReferenceIdeal.S100000x7 [1] Cert.ReferenceIdeal.S100000),
    constant_apply, Ideal.ofBits_zero_f32, zero_add]
  unfold rowLogSoftmax
  refine congrArg (fun s : EReal => _ - Ideal.log s) (Finset.sum_congr rfl fun (k : Fin 7) _ => ?_)
  refine (congrArg (Host.exp (Gcn.shiftRows h)) (Gcn.Lib.lift_row _ P k)).trans ?_
  rw [hostExp_apply, shiftRows_apply]

/-- The whole stage at entry `(P, q)`. -/
theorem biasLogSoftmax_apply (a : Gcn.F32v Ideal Cert.ReferenceIdeal.S100000x7) (brow : Gcn.F32v Ideal Cert.ReferenceIdeal.S1x7)
    (P : Fin 100000) (q : Fin 7) :
    Gcn.biasLogSoftmax a brow (ix2 P q) = rowLogSoftmax (fun k => a (ix2 P k) + brow (ix2 (0 : Fin 1) k)) q := by
  unfold Gcn.biasLogSoftmax
  rw [logSoftmaxRows_apply]
  refine congrArg (fun h : Fin 7 → EReal => rowLogSoftmax h q) (funext fun k => ?_)
  rw [addf_apply]
  refine congrArg (fun z : EReal => a (ix2 P k) + z) ?_
  exact broadcastInDim_apply _ _ brow (ix2 P k) (ix2 (0 : Fin 1) k) (fun a => by
      match a with
      | ⟨0, _⟩ => rfl
      | ⟨1, _⟩ => rfl)

end Host

/-! ## From the blocks to the array -/

/-- The windows' block indices at point `t`: the row blocks of `a` and of the result move with `t`; the bias row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 5 :=
  (by decide +kernel : ∀ t : Fin grid2.N, _)

set_option maxHeartbeats 1600000 in
/-- What point `t` writes back is block `t` of the whole stage of the arrays the region finds. -/
theorem flushed_eq [Cert.ReferenceIdeal.Facts] (c : Dev nD) (t : Fin cfg2.N) :
    (dat2 V c).flushed 2 t = ((cfg2.win 2).blk t).view.read (Elt Ideal)
      (Gcn.biasLogSoftmax (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S20000x7) hz, View.ld_unit_zero (S := S1x7) hz]
  obtain ⟨e0, e1, e2, e3, e4, e5, e6⟩ := idx_facts t
  funext j
  obtain ⟨p, q, rfl⟩ : ∃ (p : Fin 20000) (q : Fin 7), j = ix2 p q := ⟨j 0, j 1, eq_ix2 j⟩
  show k2_pay1 (F := Ideal) (iblk2 V c 0 t) (iblk2 V c 1 t) (ix2 p q)
    = Gcn.biasLogSoftmax (V c (Pipeline.arrRef spec2 0)) (V c (Pipeline.arrRef spec2 1)) (((cfg2.win 2).blk t).view.emb (ix2 p q))
  have hrow : t.val * 20000 + p.val < 100000 := by have := p.isLt; omega
  have hj : ((cfg2.win 2).blk t).view.emb (ix2 p q) = ix2 (⟨t.val * 20000 + p.val, hrow⟩ : Fin 100000) q := by
    funext a; apply Fin.ext
    match a with
    | ⟨0, _⟩ => show win2_2.index t (0 : Fin 2) * 20000 + 1 * p.val = t.val * 20000 + p.val; omega
    | ⟨1, _⟩ => show win2_2.index t (1 : Fin 2) * 7 + 1 * q.val = q.val; omega
  rw [hj, pay_apply, biasLogSoftmax_apply]
  refine congrArg (fun h : Fin 7 → EReal => rowLogSoftmax h q) (funext fun k => ?_)
  have h0 : ((cfg2.win 0).blk t).view.emb (ix2 p k) = ix2 (⟨t.val * 20000 + p.val, hrow⟩ : Fin 100000) k := by
    funext a; apply Fin.ext
    match a with
    | ⟨0, _⟩ => show win2_0.index t (0 : Fin 2) * 20000 + 1 * p.val = t.val * 20000 + p.val; omega
    | ⟨1, _⟩ => show win2_0.index t (1 : Fin 2) * 7 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 7 + 1 * k.val = k.val; omega
  have a0 : (iblk2 V c 0 t : Vec Ideal S20000x7 .f32) (ix2 p k)
      = (V c (Pipeline.arrRef spec2 0) : S100000x7.Idx → EReal) (ix2 (⟨t.val * 20000 + p.val, hrow⟩ : Fin 100000) k) := by
    show (V c (Pipeline.arrRef spec2 0) : S100000x7.Idx → EReal) (((cfg2.win 0).blk t).view.emb (ix2 p k)) = _
    rw [h0]
  have a1 : (iblk2 V c 1 t : Vec Ideal S1x7 .f32) (ix2 (0 : Fin 1) k) = (V c (Pipeline.arrRef spec2 1) : S1x7.Idx → EReal) (ix2 (0 : Fin 1) k) := by
    show (V c (Pipeline.arrRef spec2 1) : S1x7.Idx → EReal) (((cfg2.win 1).blk t).view.emb (ix2 (0 : Fin 1) k)) = _
    rw [h1]
  rw [a0, a1]

/-- An index of the result is in point `t`'s block iff its row is one of the block's rows. -/
theorem mem_blk (t : Fin cfg2.N) (i : S100000x7.Idx) :
    i ∈ ((cfg2.win 2).blk t).view.set ↔ ∀ a : Fin 2, win2_2.index t a * S20000x7.size a ≤ (i a).val ∧ (i a).val < win2_2.index t a * S20000x7.size a + S20000x7.size a := by
  show i ∈ ((View.whole main_v62).slice (win2_2.rect t)).set ↔ _
  rw [View.set_slice_whole, Rect.mem_set_unit]
  exact Iff.rfl

/-- Every entry of the result lies in the block of the point its row belongs to. -/
theorem cover (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 5 := N_2
  let t : Fin cfg2.N := ⟨(i 0).val / 20000, by rw [hN]; omega⟩
  obtain ⟨e0, e1, e2, e3, e4, e5, e6⟩ := idx_facts t
  have ht : t.val = (i 0).val / 20000 := rfl
  refine ⟨t, flush2_2 t, ?_⟩
  rw [mem_blk]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 7 ≤ (i 1).val ∧ (i 1).val < win2_2.index t (1 : Fin 2) * 7 + 7; omega

/-- After the region the result array is the whole stage of the arrays the region found. -/
theorem final [Cert.ReferenceIdeal.Facts] (c : Dev nD) :
    (dat2 V c).arrAt 2 cfg2.N = Gcn.biasLogSoftmax (V c (Pipeline.arrRef spec2 0)) (V c (Pipeline.arrRef spec2 1)) :=
  (dat2 V c).arrAt_eq_of_cover 2 _ (fun t _ => flushed_eq V c t) cover

end Cert.KernelIdeal.LogSoftmax

end
-- ==== Proof.KernelHost.lean ====
/-
  The host operations of the kernel program between its three kernel calls, read as stages of the network.

  Before the first call the program computes, from the edge list alone, the edges' sources and destinations and the
  edges' weights; between the calls it propagates the previous call's result along the edges and reshapes the next
  bias into a one-row matrix. Each stretch is read here for ANY contents `W` of the buffers it starts from: the
  buffer a stretch computes holds the corresponding stage of the buffers it reads, and a buffer no operation of the
  stretch writes holds what it held. A length-`n` bias reshaped to `[1, n]` is the same one-row matrix as the bias
  broadcast along a new leading axis.
-/
import proofs.«155649_j7086696038552_2_alg».proof.Proof.Gen.KernelIdeal.Launch
import proofs.«155649_j7086696038552_2_alg».proof.Proof.Spec
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.HostStages

open Cert.KernelIdeal Cert.KernelIdeal.Gen

variable {F : FTy → Type} [FloatOps F] [Cert.ReferenceIdeal.Facts]
variable (W : Valuation τ sig (Elt F))

/-- The contents after the three stretches that precede the first kernel call. -/
abbrev pre : Valuation τ sig (Elt F) := after hostOps0_2 (after hostOps0_1 (after hostOps0 W))

set_option maxHeartbeats 4000000 in
theorem pre_sources : pre W (Proc.devRef .tc main_v3) = Gcn.sources (W (Proc.devRef .tc main_arg1)) := by
  simp only [pre, hostOps0, hostOps0_1, hostOps0_2]; after_results_simp; rfl

set_option maxHeartbeats 4000000 in
theorem pre_targets : pre W (Proc.devRef .tc main_v6) = Gcn.targets (W (Proc.devRef .tc main_arg1)) := by
  simp only [pre, hostOps0, hostOps0_1, hostOps0_2]; after_results_simp; rfl

set_option maxHeartbeats 4000000 in
theorem pre_edgeNorm : pre W (Proc.devRef .tc main_v31)
    = Gcn.edgeNorm (Gcn.sources (W (Proc.devRef .tc main_arg1))) (Gcn.targets (W (Proc.devRef .tc main_arg1))) := by
  simp only [pre, hostOps0, hostOps0_1, hostOps0_2]; after_results_simp; rfl

set_option maxHeartbeats 4000000 in
theorem pre_arg0 : pre W (Proc.devRef .tc main_arg0) = W (Proc.devRef .tc main_arg0) := by
  simp only [pre, hostOps0, hostOps0_1, hostOps0_2]; after_results_simp
set_option maxHeartbeats 4000000 in
theorem pre_arg2 : pre W (Proc.devRef .tc main_arg2) = W (Proc.devRef .tc main_arg2) := by
  simp only [pre, hostOps0, hostOps0_1, hostOps0_2]; after_results_simp
set_option maxHeartbeats 4000000 in
theorem pre_arg3 : pre W (Proc.devRef .tc main_arg3) = W (Proc.devRef .tc main_arg3) := by
  simp only [pre, hostOps0, hostOps0_1, hostOps0_2]; after_results_simp
set_option maxHeartbeats 4000000 in
theorem pre_arg4 : pre W (Proc.devRef .tc main_arg4) = W (Proc.devRef .tc main_arg4) := by
  simp only [pre, hostOps0, hostOps0_1, hostOps0_2]; after_results_simp
set_option maxHeartbeats 4000000 in
theorem pre_arg5 : pre W (Proc.devRef .tc main_arg5) = W (Proc.devRef .tc main_arg5) := by
  simp only [pre, hostOps0, hostOps0_1, hostOps0_2]; after_results_simp

/-! ## Between the first and the second call -/

set_option maxHeartbeats 4000000 in
theorem mid_propagate : after hostOps1 W (Proc.devRef .tc main_v45)
    = Gcn.propagate16 (W (Proc.devRef .tc main_v32)) (W (Proc.devRef .tc main_v3)) (W (Proc.devRef .tc main_v6)) (W (Proc.devRef .tc main_v31)) := by
  simp only [hostOps1]; after_results_simp; rfl

set_option maxHeartbeats 4000000 in
theorem mid_bias : after hostOps1 W (Proc.devRef .tc main_v46)
    = shapeCast S1x16 (W (Proc.devRef .tc main_arg3)) Facts₀.shapeCasts_S16_S1x16 := by
  simp only [hostOps1]; after_results_simp; rfl

set_option maxHeartbeats 4000000 in
theorem mid_arg4 : after hostOps1 W (Proc.devRef .tc main_arg4) = W (Proc.devRef .tc main_arg4) := by
  simp only [hostOps1]; after_results_simp
set_option maxHeartbeats 4000000 in
theorem mid_arg5 : after hostOps1 W (Proc.devRef .tc main_arg5) = W (Proc.devRef .tc main_arg5) := by
  simp only [hostOps1]; after_results_simp
set_option maxHeartbeats 4000000 in
theorem mid_v3 : after hostOps1 W (Proc.devRef .tc main_v3) = W (Proc.devRef .tc main_v3) := by
  simp only [hostOps1]; after_results_simp
set_option maxHeartbeats 4000000 in
theorem mid_v6 : after hostOps1 W (Proc.devRef .tc main_v6) = W (Proc.devRef .tc main_v6) := by
  simp only [hostOps1]; after_results_simp
set_option maxHeartbeats 4000000 in
theorem mid_v31 : after hostOps1 W (Proc.devRef .tc main_v31) = W (Proc.devRef .tc main_v31) := by
  simp only [hostOps1]; after_results_simp

/-! ## Between the second and the third call -/

set_option maxHeartbeats 4000000 in
theorem last_propagate : after hostOps2 W (Proc.devRef .tc main_v60)
    = Gcn.propagate7 (W (Proc.devRef .tc main_v47)) (W (Proc.devRef .tc main_v3)) (W (Proc.devRef .tc main_v6)) (W (Proc.devRef .tc main_v31)) := by
  simp only [hostOps2]; after_results_simp; rfl

set_option maxHeartbeats 4000000 in
theorem last_bias : after hostOps2 W (Proc.devRef .tc main_v61)
    = shapeCast S1x7 (W (Proc.devRef .tc main_arg5)) Facts₀.shapeCasts_S7_S1x7 := by
  simp only [hostOps2]; after_results_simp; rfl

/-! ## A reshaped bias is the broadcast bias -/

theorem reshape_row16 (x : Gcn.F32v F Cert.ReferenceIdeal.S16) (h : Cert.ReferenceIdeal.S16.ShapeCasts Cert.ReferenceIdeal.S1x16) :
    shapeCast Cert.ReferenceIdeal.S1x16 x h = Gcn.biasRow16 x := by
  funext j
  obtain ⟨u, k, rfl⟩ : ∃ (u : Fin 1) (k : Fin 16), j = ix2 u k := ⟨j 0, j 1, eq_ix2 j⟩
  have hu : u.val = 0 := by omega
  unfold Gcn.biasRow16
  rw [broadcastInDim_apply _ _ x (ix2 u k) (ix1 k) (fun a => by match a with | ⟨0, _⟩ => rfl)]
  exact shapeCast_apply x h (ix2 u k) (ix1 k) (by
    rw [Shape.rowMajor_val_two, Shape.rowMajor_val_one]
    show k.val = u.val * 16 + k.val
    omega)

theorem reshape_row7 (x : Gcn.F32v F Cert.ReferenceIdeal.S7) (h : Cert.ReferenceIdeal.S7.ShapeCasts Cert.ReferenceIdeal.S1x7) :
    shapeCast Cert.ReferenceIdeal.S1x7 x h = Gcn.biasRow7 x := by
  funext j
  obtain ⟨u, k, rfl⟩ : ∃ (u : Fin 1) (k : Fin 7), j = ix2 u k := ⟨j 0, j 1, eq_ix2 j⟩
  have hu : u.val = 0 := by omega
  unfold Gcn.biasRow7
  rw [broadcastInDim_apply _ _ x (ix2 u k) (ix1 k) (fun a => by match a with | ⟨0, _⟩ => rfl)]
  exact shapeCast_apply x h (ix2 u k) (ix1 k) (by
    rw [Shape.rowMajor_val_two, Shape.rowMajor_val_one]
    show k.val = u.val * 7 + k.val
    omega)

end Cert.KernelIdeal.HostStages

end
-- ==== Proof.KernelRun.lean ====
/-
  The kernel program's run with its result named.

  The program alternates stretches of host operations with three kernel calls. Reading its buffers after each segment:
  the stretches before the first call compute the edges' sources, destinations and weights from the edge list; the
  first call leaves `x · W1` in its result array; the next stretch propagates that along the edges and reshapes `b1`;
  the second call leaves `relu (· + b1) · W2`; the next stretch propagates again and reshapes `b2`; the third call leaves
  the biased `log_softmax`. Buffers a segment does not write keep their contents. Composed, the result buffer after the
  last call holds `Gcn.gcn` of the six argument arrays, and the arguments are unchanged.
-/
import proofs.«155649_j7086696038552_2_alg».proof.Proof.Gen.KernelIdeal.Frame
import proofs.«155649_j7086696038552_2_alg».proof.Proof.Gen.ReferenceIdeal
import proofs.«155649_j7086696038552_2_alg».proof.Proof.Dense1
import proofs.«155649_j7086696038552_2_alg».proof.Proof.Dense2
import proofs.«155649_j7086696038552_2_alg».proof.Proof.LogSoftmax
import proofs.«155649_j7086696038552_2_alg».proof.Proof.KernelHost

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The edges' sources, destinations and weights, of the edge list at launch. -/
abbrev src (c : Dev nD) := Gcn.sources (F := Ideal) (m ((c : Thread nD τ).loc main_arg1))
abbrev dst (c : Dev nD) := Gcn.targets (F := Ideal) (m ((c : Thread nD τ).loc main_arg1))
abbrev nrm (c : Dev nD) := Gcn.edgeNorm (F := Ideal) (src m c) (dst m c)

/-- The network of the argument arrays at launch. -/
abbrev result (c : Dev nD) : Buf (Elt Ideal) ((c.tc : Thread nD τ).loc main_v62) :=
  Gcn.gcn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## At the first call's entry -/

theorem W3_src (c : Dev nD) : W3 m ρ c (Proc.devRef .tc main_v3) = src m c := HostStages.pre_sources (W0 m ρ c)
theorem W3_dst (c : Dev nD) : W3 m ρ c (Proc.devRef .tc main_v6) = dst m c := HostStages.pre_targets (W0 m ρ c)
theorem W3_nrm (c : Dev nD) : W3 m ρ c (Proc.devRef .tc main_v31) = nrm m c := HostStages.pre_edgeNorm (W0 m ρ c)
theorem W3_arg0 (c : Dev nD) : W3 m ρ c (Proc.devRef .tc main_arg0) = m ((c : Thread nD τ).loc main_arg0) := HostStages.pre_arg0 (W0 m ρ c)
theorem W3_arg2 (c : Dev nD) : W3 m ρ c (Proc.devRef .tc main_arg2) = m ((c : Thread nD τ).loc main_arg2) := HostStages.pre_arg2 (W0 m ρ c)
theorem W3_arg3 (c : Dev nD) : W3 m ρ c (Proc.devRef .tc main_arg3) = m ((c : Thread nD τ).loc main_arg3) := HostStages.pre_arg3 (W0 m ρ c)
theorem W3_arg4 (c : Dev nD) : W3 m ρ c (Proc.devRef .tc main_arg4) = m ((c : Thread nD τ).loc main_arg4) := HostStages.pre_arg4 (W0 m ρ c)
theorem W3_arg5 (c : Dev nD) : W3 m ρ c (Proc.devRef .tc main_arg5) = m ((c : Thread nD τ).loc main_arg5) := HostStages.pre_arg5 (W0 m ρ c)

/-! ## At the first call's exit -/

theorem W4_src (c : Dev nD) : W4 m ρ c (Proc.devRef .tc main_v3) = src m c := (W4_of_ne m ρ c main_v3 (by decide)).trans (W3_src m ρ c)
theorem W4_dst (c : Dev nD) : W4 m ρ c (Proc.devRef .tc main_v6) = dst m c := (W4_of_ne m ρ c main_v6 (by decide)).trans (W3_dst m ρ c)
theorem W4_nrm (c : Dev nD) : W4 m ρ c (Proc.devRef .tc main_v31) = nrm m c := (W4_of_ne m ρ c main_v31 (by decide)).trans (W3_nrm m ρ c)
theorem W4_arg3 (c : Dev nD) : W4 m ρ c (Proc.devRef .tc main_arg3) = m ((c : Thread nD τ).loc main_arg3) := (W4_of_ne m ρ c main_arg3 (by decide)).trans (W3_arg3 m ρ c)
theorem W4_arg4 (c : Dev nD) : W4 m ρ c (Proc.devRef .tc main_arg4) = m ((c : Thread nD τ).loc main_arg4) := (W4_of_ne m ρ c main_arg4 (by decide)).trans (W3_arg4 m ρ c)
theorem W4_arg5 (c : Dev nD) : W4 m ρ c (Proc.devRef .tc main_arg5) = m ((c : Thread nD τ).loc main_arg5) := (W4_of_ne m ρ c main_arg5 (by decide)).trans (W3_arg5 m ρ c)

/-- The first call's result array: `x · W1`. -/
theorem W4_dense1 (c : Dev nD) : W4 m ρ c (Proc.devRef .tc main_v32)
    = Gcn.dense1 (F := Ideal) (m ((c : Thread nD τ).loc main_arg0)) (m ((c : Thread nD τ).loc main_arg2)) := by
  refine (W4_arr m ρ c 2).trans ((Dense1.final (V3 m ρ) c).trans ?_)
  rw [show V3 m ρ c (Pipeline.arrRef spec0 0) = m ((c : Thread nD τ).loc main_arg0) from W3_arg0 m ρ c,
    show V3 m ρ c (Pipeline.arrRef spec0 1) = m ((c : Thread nD τ).loc main_arg2) from W3_arg2 m ρ c]

/-! ## At the second call's entry and exit -/

/-- The first propagation. -/
abbrev prop1 (c : Dev nD) :=
  Gcn.propagate16 (F := Ideal) (Gcn.dense1 (m ((c : Thread nD τ).loc main_arg0)) (m ((c : Thread nD τ).loc main_arg2))) (src m c) (dst m c) (nrm m c)

theorem W5_prop1 (c : Dev nD) : W5 m ρ c (Proc.devRef .tc main_v45) = prop1 m c := by
  refine (HostStages.mid_propagate (W4 m ρ c)).trans ?_
  rw [W4_dense1, W4_src, W4_dst, W4_nrm]
theorem W5_bias (c : Dev nD) : W5 m ρ c (Proc.devRef .tc main_v46) = Gcn.biasRow16 (F := Ideal) (m ((c : Thread nD τ).loc main_arg3)) := by
  refine (HostStages.mid_bias (W4 m ρ c)).trans ?_
  rw [W4_arg3]
  exact HostStages.reshape_row16 _ _
theorem W5_arg4 (c : Dev nD) : W5 m ρ c (Proc.devRef .tc main_arg4) = m ((c : Thread nD τ).loc main_arg4) := (HostStages.mid_arg4 (W4 m ρ c)).trans (W4_arg4 m ρ c)
theorem W5_arg5 (c : Dev nD) : W5 m ρ c (Proc.devRef .tc main_arg5) = m ((c : Thread nD τ).loc main_arg5) := (HostStages.mid_arg5 (W4 m ρ c)).trans (W4_arg5 m ρ c)
theorem W5_src (c : Dev nD) : W5 m ρ c (Proc.devRef .tc main_v3) = src m c := (HostStages.mid_v3 (W4 m ρ c)).trans (W4_src m ρ c)
theorem W5_dst (c : Dev nD) : W5 m ρ c (Proc.devRef .tc main_v6) = dst m c := (HostStages.mid_v6 (W4 m ρ c)).trans (W4_dst m ρ c)
theorem W5_nrm (c : Dev nD) : W5 m ρ c (Proc.devRef .tc main_v31) = nrm m c := (HostStages.mid_v31 (W4 m ρ c)).trans (W4_nrm m ρ c)

theorem W6_src (c : Dev nD) : W6 m ρ c (Proc.devRef .tc main_v3) = src m c := (W6_of_ne m ρ c main_v3 (by decide)).trans (W5_src m ρ c)
theorem W6_dst (c : Dev nD) : W6 m ρ c (Proc.devRef .tc main_v6) = dst m c := (W6_of_ne m ρ c main_v6 (by decide)).trans (W5_dst m ρ c)
theorem W6_nrm (c : Dev nD) : W6 m ρ c (Proc.devRef .tc main_v31) = nrm m c := (W6_of_ne m ρ c main_v31 (by decide)).trans (W5_nrm m ρ c)
theorem W6_arg5 (c : Dev nD) : W6 m ρ c (Proc.devRef .tc main_arg5) = m ((c : Thread nD τ).loc main_arg5) := (W6_of_ne m ρ c main_arg5 (by decide)).trans (W5_arg5 m ρ c)

/-- The second call's result array: `relu (prop1 + b1) · W2`. -/
abbrev hidden (c : Dev nD) :=
  Gcn.dense2 (F := Ideal) (prop1 m c) (Gcn.biasRow16 (m ((c : Thread nD τ).loc main_arg3))) (m ((c : Thread nD τ).loc main_arg4))

theorem W6_dense2 (c : Dev nD) : W6 m ρ c (Proc.devRef .tc main_v47) = hidden m c := by
  refine (W6_arr m ρ c 3).trans ((Dense2.final (V5 m ρ) c).trans ?_)
  rw [show V5 m ρ c (Pipeline.arrRef spec1 0) = prop1 m c from W5_prop1 m ρ c,
    show V5 m ρ c (Pipeline.arrRef spec1 1) = Gcn.biasRow16 (F := Ideal) (m ((c : Thread nD τ).loc main_arg3)) from W5_bias m ρ c,
    show V5 m ρ c (Pipeline.arrRef spec1 2) = m ((c : Thread nD τ).loc main_arg4) from W5_arg4 m ρ c]

/-! ## At the third call's entry and exit -/

theorem W7_prop2 (c : Dev nD) : W7 m ρ c (Proc.devRef .tc main_v60)
    = Gcn.propagate7 (F := Ideal) (hidden m c) (src m c) (dst m c) (nrm m c) := by
  refine (HostStages.last_propagate (W6 m ρ c)).trans ?_
  rw [W6_dense2, W6_src, W6_dst, W6_nrm]
theorem W7_bias (c : Dev nD) : W7 m ρ c (Proc.devRef .tc main_v61) = Gcn.biasRow7 (F := Ideal) (m ((c : Thread nD τ).loc main_arg5)) := by
  refine (HostStages.last_bias (W6 m ρ c)).trans ?_
  rw [W6_arg5]
  exact HostStages.reshape_row7 _ _

/-- The third call's result array: the network of the argument arrays. -/
theorem W8_v62 (c : Dev nD) : W8 m ρ c (Proc.devRef .tc main_v62) = result m c := by
  refine (W8_arr m ρ c 2).trans ((LogSoftmax.final (V7 m ρ) c).trans ?_)
  rw [show V7 m ρ c (Pipeline.arrRef spec2 0) = Gcn.propagate7 (F := Ideal) (hidden m c) (src m c) (dst m c) (nrm m c) from W7_prop2 m ρ c,
    show V7 m ρ c (Pipeline.arrRef spec2 1) = Gcn.biasRow7 (F := Ideal) (m ((c : Thread nD τ).loc main_arg5)) from W7_bias m ρ c]
  rfl

/-! ## The run -/

set_option backward.isDefEq.respectTransparency.types false in
/-- Every weakly fair execution of the kernel program terminates, nothing faulting, with the result buffer at the
    network of the argument arrays and the arguments unchanged. -/
theorem run : θ_run defs (onTc (τ := τ) (main (F := Ideal))) ⟨m, fun _ => 0, ρ⟩ (fun r => ∀ c : Dev nD,
      r.2.mem ((c.tc : Thread nD τ).loc main_v62) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v62 (by decide))).trans (W8_v62 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.lean ====
/-
  A two-layer graph convolution with a final `log_softmax`, computed two ways.

  Both programs derive, from the edge list, the edges' endpoints (a self loop appended per node), the nodes' degrees
  and the symmetric edge weights `deg(s)^(-1/2) · deg(d)^(-1/2)`, and both propagate features along the edges by a gather,
  a scaling and a scatter-add — with the same host operations. They differ in the three dense stages. The reference
  states each on whole arrays: `x · W1`; `relu (a + b1) · W2`; `log_softmax (a + b2)` row by row. The kernel program runs
  each as a kernel over five blocks of 20000 rows: a matrix product accumulated into zero on the matrix unit; the bias
  added, the block clamped at zero and multiplied; the bias added and each row shifted by its maximum, exponentiated,
  summed, and the logarithm of the sum subtracted. On the extended reals every block of a kernel's result is the same
  rows of the reference's whole-array stage (a product accumulated into zero is the `dot_general`'s sum; the host's extra
  `max (-∞, row maximum)` is the row maximum; a bias reshaped to one row is the bias broadcast along a new axis), and the
  blocks tile the array. So both programs end with the same function `Gcn.gcn` of the six argument arrays, whatever the
  arguments: the precondition is not used. No operation of the kernel was rewritten by the idealization, so its ledger is
  empty.
-/
import proofs.«155649_j7086696038552_2_alg».proof.Defs
import proofs.«155649_j7086696038552_2_alg».proof.Proof.Gen.Kernel
import proofs.«155649_j7086696038552_2_alg».proof.Proof.Gen.Kernel.Skeleton
import proofs.«155649_j7086696038552_2_alg».proof.Proof.Gen.Kernel.Launch
import proofs.«155649_j7086696038552_2_alg».proof.Proof.Gen.Kernel.Points
import proofs.«155649_j7086696038552_2_alg».proof.Proof.Gen.Kernel.Frame
import proofs.«155649_j7086696038552_2_alg».proof.Proof.Gen.KernelIdeal
import proofs.«155649_j7086696038552_2_alg».proof.Proof.Gen.KernelIdeal.Skeleton
import proofs.«155649_j7086696038552_2_alg».proof.Proof.Gen.KernelIdeal.Launch
import proofs.«155649_j7086696038552_2_alg».proof.Proof.Gen.KernelIdeal.Points
import proofs.«155649_j7086696038552_2_alg».proof.Proof.Gen.KernelIdeal.Frame
import proofs.«155649_j7086696038552_2_alg».proof.Proof.Gen.ReferenceIdeal
import proofs.«155649_j7086696038552_2_alg».proof.Proof.Gen.Pre_finite_inputs
import proofs.«155649_j7086696038552_2_alg».proof.Proof.RefRun
import proofs.«155649_j7086696038552_2_alg».proof.Proof.KernelRun
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both idealized programs end with the network `Gcn.gcn` of the
    argument arrays in their result buffers. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  unfold Cert.ReferenceIdeal.ValueP.res_main_v67
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
